-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1 : Shape := ⟨1, ![1]⟩
abbrev S128x128 : Shape := ⟨2, ![128, 128]⟩
abbrev S128 : Shape := ⟨1, ![128]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_v28 : IVec S_ 1) (main_v33 : IVec S_ 1) : IVec S_ 1 :=
  let main_v34 : IVec S_ 1 := andi main_v28 main_v33
  main_v34

def fn_part1 {F : FTy → Type} [FloatOps F] (main_arg1 : IVec S2x1600000 32) (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : IVec S1x1600000 32 := (extractStridedSlice S1x1600000 ![1, 0] · slices_S2x1600000_S1x1600000_1_0) main_arg1
  let main_v30 : IVec S1600000 32 := shapeCast S1600000 main_v29 shapeCasts_S1x1600000_S1600000
  let main_c_10 : IVec S_ 32 := constantI S_ 32 0#32
  let main_v31 : IVec S1600000 32 := broadcastInDim S1600000 ![] bcast_S_S1600000 main_c_10
  let main_v32 : IVec S1600000 1 := cmpi .sge main_v30 main_v31
  let main_c_11 : IVec S_ 1 := constantI S_ 1 1#1
  let main_v33 : IVec S_ 1 := (fun x v => Host.reduce IntOp.andi x v reducesTo_S1600000_S_d0 h_S_) main_v32 main_c_11
  fn_part2 (F := F) main_v28 main_v33

def fn {F : FTy → Type} [FloatOps F] (main_arg0 : FVec F S100000x128 .f32) (main_arg1 : IVec S2x1600000 32) (main_arg2 : FVec F S1 .f32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_v13 main_v16
-- ==== Kernel.lean ====
abbrev S100000x128 : Shape := ⟨2, ![100000, 128]⟩
abbrev S2x1600000 : Shape := ⟨2, ![2, 1600000]⟩
abbrev S1 : Shape := ⟨1, ![1]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 37
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S100000x128, .f32⟩
  | .hbm, ⟨15, _⟩ => ⟨S100000x128, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S100000x128, .f32⟩
  | .hbm, ⟨34, _⟩ => ⟨S1x128, .f32⟩
  | .hbm, ⟨35, _⟩ => ⟨S1x128, .f32⟩
  | .hbm, ⟨36, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S1_S_ : S1.ShapeCasts S_
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1 : Shape := ⟨1, ![1]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S1_S_ : S1.ShapeCasts S_
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibDense.lean ====
/-
  Dense layers read at an index, over the extended reals.

  A bias vector `b : [N]` enters a dense layer as a row broadcast over `M` rows: in a kernel as a shape cast to
  `[1, N]` followed by a vector broadcast to `[M, N]`, on the host as two `broadcast_in_dim`s.  Either way the entry
  at `(p, q)` is `b q`.  With the plain matrix product read at an index this gives the three layers below as plain
  formulas, whatever the tiling of the rows:

    * `linRelu x w b (p, q) = max (∑ k, x (p, k) * w (k, q) + b q) 0`
    * `sageRelu agg h wl bl wr (p, q) = max ((∑ k, agg (p, k) * wl (k, q) + bl q) + ∑ k, h (p, k) * wr (k, q)) 0`
    * `mlpPre cat w1 b1 w2 b2 (p, u) = ∑ j, max (∑ k, cat (p, k) * w1 (k, j) + b1 j) 0 * w2 (j, u) + b2 u`
    * `mlpScore … = tanh (mlpPre …)`, entry by entry

  (`0` is kept as the float word `0x00000000` read at the ideal instance; it is the same word on every side and is
  never evaluated.)
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.DenseLayer

open Idealize.ShloMosaic Idealize.ShloMosaic.ValueIdx

variable {α : Type}

/-- A kernel's bias row: `b : [N]` cast to `[1, N]` and broadcast to `[M, N]` reads `b q` at `(p, q)`. -/
theorem castRow_apply {M N : ℕ} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_1b_ab_apply, shapeCast_a_1a_apply]

/-- The host's bias row: `b : [N]` broadcast to `[1, N]` along axis 1, then to `[M, N]`, reads `b q` at `(p, q)`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The float word zero, read at the ideal instance. -/
abbrev zeroWord : EReal := Ideal.ofBits .f32 0x00000000#32

/-- `relu (x · w + b)`, entry by entry. -/
def linRelu {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal := fun i =>
  max (∑ k : Fin K, x (ix2 (i 0) k) * w (ix2 k (i 1)) + b (ix1 (i 1))) zeroWord

/-- `relu ((agg · wl + bl) + h · wr)`, entry by entry. -/
def sageRelu {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) :
    (⟨2, ![M, N]⟩ : Shape).Idx → EReal := fun i =>
  max ((∑ k : Fin K, agg (ix2 (i 0) k) * wl (ix2 k (i 1)) + bl (ix1 (i 1)))
    + ∑ k : Fin K, h (ix2 (i 0) k) * wr (ix2 k (i 1))) zeroWord

/-- `relu (cat · w1 + b1) · w2 + b2`, entry by entry: the score before its `tanh`. -/
def mlpPre {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  ∑ j : Fin H, linRelu cat w1 b1 (ix2 (i 0) j) * w2 (ix2 j (i 1)) + b2 (ix1 (i 1))

/-- The score: `tanh` of `mlpPre`, entry by entry. -/
def mlpScore {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  Ideal.tanh (mlpPre cat w1 b1 w2 b2 i)

theorem linRelu_apply {M K N : ℕ} (x : (⟨2, ![M, K]⟩ : Shape).Idx → EReal) (w : (⟨2, ![K, N]⟩ : Shape).Idx → EReal)
    (b : (⟨1, ![N]⟩ : Shape).Idx → EReal) (p : Fin M) (q : Fin N) :
    linRelu x w b (ix2 p q) = max (∑ k : Fin K, x (ix2 p k) * w (ix2 k q) + b (ix1 q)) zeroWord := rfl

theorem sageRelu_apply {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) (p : Fin M) (q : Fin N) :
    sageRelu agg h wl bl wr (ix2 p q)
      = max ((∑ k : Fin K, agg (ix2 p k) * wl (ix2 k q) + bl (ix1 q)) + ∑ k : Fin K, h (ix2 p k) * wr (ix2 k q)) zeroWord := rfl

theorem mlpPre_apply {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) (p : Fin M) (u : Fin N) :
    mlpPre cat w1 b1 w2 b2 (ix2 p u)
      = ∑ j : Fin H, max (∑ k : Fin K, cat (ix2 p k) * w1 (ix2 k j) + b1 (ix1 j)) zeroWord * w2 (ix2 j u) + b2 (ix1 u) := rfl

end Idealize.ShloMosaic.DenseLayer

end
-- ==== Proof.BodyAtIndex.lean ====
/-
  What one grid point's body computes, entry by entry, over the extended reals.

  The body loads a block `a` of 5000 rows of the aggregated features, both weight matrices and both bias rows, and
  stores  relu(a · W1 + b1) · W2 + b2.  Narrowing to bf16 before each product is the identity at the ideal values, a
  product into the zero accumulator is the plain sum over the contracted coordinate, and a `[1, 128]` bias row
  broadcast over the rows reads its column's entry.  So the stored entry `(p, q)` is

      ∑ j, max (∑ k, a (p, k) * W1 (k, j) + b1 (0, j)) 0 * W2 (j, q) + b2 (0, q).
-/
import proofs.«111554_j11587821765006_2_alg».proof.Proof.Gen.KernelIdeal.Skeleton
import proofs.«111554_j11587821765006_2_alg».proof.Proof.LibPlainDot
import proofs.«111554_j11587821765006_2_alg».proof.Proof.LibDense
import Idealize.ShloMosaic.Lib.ValueIdx
import Idealize.ShloMosaic.Lib.ValueLayout
import Idealize.ShloMosaic.Lib.Pipeline.Value

noncomputable section

namespace Cert.Gin.BodyAtIndex

open Idealize.ShloMosaic Idealize.ShloMosaic.ValueIdx Cert.KernelIdeal Cert.KernelIdeal.Gen
open Idealize.ShloMosaic.DenseLayer (zeroWord)

variable [Cert.KernelIdeal.Facts]

/-- A `[1, N]` row, cast to its own shape and broadcast over `M` rows, reads its entry `(0, q)` at `(p, q)`. -/
theorem biasRow_apply {α : Type} {M N : ℕ} (b : (⟨2, ![1, N]⟩ : Shape).Idx → α)
    (h1 : (⟨2, ![1, N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix2 (0 : Fin 1) q) := by
  rw [broadcastTo_1b_ab_apply, shapeCast_self]

/-- The kernel's product records are plain `M×K` by `K×N` products. -/
theorem dot_plain :
    dot_S5000x128_S128x128_S5000x128_1_0_0_1_n_n = DotDims.plain 5000 128 128 := rfl

/-- The first layer at `(p, j)`: `max (∑ k, a (p, k) * W1 (k, j) + b1 (0, j)) 0`. -/
theorem hidden_apply (a : Vec Ideal S5000x128 .f32) (w1 : Vec Ideal S128x128 .f32) (b1 : Vec Ideal S1x128 .f32)
    (p : Fin 5000) (j : Fin 128) :
    maximumf (F := Ideal)
        (addf (matmul dot_S5000x128_S128x128_S5000x128_1_0_0_1_n_n none
            (truncf .bf16 (shapeCast S5000x128 a Facts₀.shapeCasts_S5000x128_S5000x128) Facts₀.bitsLt_bf16_f32)
            (truncf .bf16 w1 Facts₀.bitsLt_bf16_f32) (constant S5000x128 .f32 0x00000000#32))
          (broadcastTo S5000x128 (shapeCast S1x128 b1 Facts₀.shapeCasts_S1x128_S1x128) Facts₀.broadcasts_S1x128_S5000x128))
        (broadcast S5000x128 (Scalar.ofBits .f32 0x00000000#32)) (ix2 p j)
      = max (∑ k : Fin 128, a (ix2 p k) * w1 (ix2 k j) + b1 (ix2 (0 : Fin 1) j)) zeroWord := by
  show max (FloatOps.matmul _ _ _ _ _ (ix2 p j) + broadcastTo _ _ _ (ix2 p j)) _ = _
  rw [PlainDot.matmul_zero_apply _ dot_plain, biasRow_apply]
  simp only [truncf, Ideal.truncf_def, shapeCast_self]
  rfl

/-- The stored entry `(p, q)` of the body's one store. -/
theorem pay_apply (a : Vec Ideal S5000x128 .f32) (w1 : Vec Ideal S128x128 .f32) (b1 : Vec Ideal S1x128 .f32)
    (w2 : Vec Ideal S128x128 .f32) (b2 : Vec Ideal S1x128 .f32) (p : Fin 5000) (q : Fin 128) :
    k0_pay1 (F := Ideal) a w1 b1 w2 b2 (ix2 p q)
      = ∑ j : Fin 128, max (∑ k : Fin 128, a (ix2 p k) * w1 (ix2 k j) + b1 (ix2 (0 : Fin 1) j)) zeroWord * w2 (ix2 j q)
          + b2 (ix2 (0 : Fin 1) q) := by
  unfold k0_pay1
  show FloatOps.matmul _ _ _ _ _ (ix2 p q) + broadcastTo _ _ _ (ix2 p q) = _
  rw [PlainDot.matmul_zero_apply _ dot_plain, biasRow_apply]
  congr 1
  refine Finset.sum_congr rfl fun j _ => ?_
  exact congrArg₂ (· * ·) (hidden_apply a w1 b1 p j) rfl

end Cert.Gin.BodyAtIndex

end
-- ==== Proof.KernelArray.lean ====
/-
  The kernel's result array as one function of the arrays its region finds.

  The region runs over 20 grid points.  Point `t` fetches rows `5000·t … 5000·t + 4999` of the aggregated features
  (the weights and bias rows whole, the same at every point), and writes back the same rows of the result.  Entry
  `(p, q)` of what point `t` writes is the two-layer formula of row `p` of its block, so it is the entry
  `(5000·t + p, q)` of ONE whole-array function `rowsMlp` of the region's arrays; the 20 row blocks tile the
  100000 rows (row `r` lies in block `r / 5000`), hence after the run the result array IS `rowsMlp`.
-/
import proofs.«111554_j11587821765006_2_alg».proof.Proof.Gen.KernelIdeal.Value
import proofs.«111554_j11587821765006_2_alg».proof.Proof.BodyAtIndex

noncomputable section

namespace Cert.Gin.KernelArray

open Cert.KernelIdeal Cert.KernelIdeal.Gen Idealize.ShloMosaic Idealize.ShloMosaic.TcCoe Idealize.SL.Sem
open Idealize.ShloMosaic.ValueIdx
open Idealize.ShloMosaic.Pipeline (Dat)
open Idealize.ShloMosaic.DenseLayer (zeroWord)

variable (m : (ℓ : Loc nD τ sig) → Buf (Elt Ideal) ℓ) (ρ : Dev nD → PrngReg)

/-- `relu (a · w1 + r1) · w2 + r2` row by row, the biases given as `[1, 128]` rows: entry `(r, q)` is
    `∑ j, max (∑ k, a (r, k) * w1 (k, j) + r1 (0, j)) 0 * w2 (j, q) + r2 (0, q)`. -/
def rowsMlp (a : S100000x128.Idx → Elt Ideal .f32) (w1 : S128x128.Idx → Elt Ideal .f32) (r1 : S1x128.Idx → Elt Ideal .f32)
    (w2 : S128x128.Idx → Elt Ideal .f32) (r2 : S1x128.Idx → Elt Ideal .f32) : S100000x128.Idx → Elt Ideal .f32 := fun i =>
  ∑ j : Fin 128, max (∑ k : Fin 128, a (ix2 (i 0) k) * w1 (ix2 k j) + r1 (ix2 (0 : Fin 1) j)) zeroWord * w2 (ix2 j (i 1))
    + r2 (ix2 (0 : Fin 1) (i 1))

theorem rowsMlp_apply (a : S100000x128.Idx → Elt Ideal .f32) (w1 : S128x128.Idx → Elt Ideal .f32)
    (r1 : S1x128.Idx → Elt Ideal .f32) (w2 : S128x128.Idx → Elt Ideal .f32) (r2 : S1x128.Idx → Elt Ideal .f32)
    (r : Fin 100000) (q : Fin 128) :
    rowsMlp a w1 r1 w2 r2 (ix2 r q)
      = ∑ j : Fin 128, max (∑ k : Fin 128, a (ix2 r k) * w1 (ix2 k j) + r1 (ix2 (0 : Fin 1) j)) zeroWord * w2 (ix2 j q)
          + r2 (ix2 (0 : Fin 1) q) := rfl

theorem zero_offsets : (![0, 0] : Fin 2 → Nat) = fun _ => 0 := funext fun a => by fin_cases a <;> rfl

/-- The block index of every window at every grid point: the row windows (0 and 5) move with the point, the weight
    and bias windows stay at block `(0, 0)`. Decided over the 20 points. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 20 := lt_of_lt_of_eq t.isLt N_0

/-- Row `p` of point `t`'s block is row `5000·t + p` of the array. -/
def rowOf (t : Fin cfg0.N) (p : Fin 5000) : Fin 100000 :=
  ⟨t.val * 5000 + p.val, by have := point_lt t; have := p.isLt; omega⟩

/-! ## Each window's block at a point, read where the array holds it -/

theorem read_rows (c : Dev nD) (t : Fin cfg0.N) (p : Fin 5000) (k : Fin 128) :
    iblk m c 0 t (ix2 p k) = V m c main_v21 (ix2 (rowOf t p) k) := by
  obtain ⟨e0, e1, -⟩ := block_index t
  show V m c main_v21 (((cfg0.win 0).blk t).view.emb (ix2 p k)) = _
  refine congrArg (V m c main_v21) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

theorem read_w1 (c : Dev nD) (t : Fin cfg0.N) (k j : Fin 128) :
    iblk m c 1 t (ix2 k j) = V m c main_arg3 (ix2 k j) := by
  obtain ⟨-, -, e0, e1, -⟩ := block_index t
  show V m c main_arg3 (((cfg0.win 1).blk t).view.emb (ix2 k j)) = _
  refine congrArg (V m c main_arg3) (funext fun a => Fin.ext ?_)
  match a with
  | ⟨0, _⟩ => show win0_1.index t (0 : Fin 2) * 128 + 1 * k.val = k.val; omega
  | ⟨1, _⟩ => show win0_1.index t (1 : Fin 2) * 128 + 1 * j.val = j.val; omega

theorem read_r1 (c : Dev nD) (t : Fin cfg0.N) (j : Fin 128) :
    iblk m c 2 t (ix2 (0 : Fin 1) j) = V m c main_v22 (ix2 (0 : Fin 1) j) := by
  obtain ⟨-, -, -, -, e0, e1, -⟩ := block_index t
  show V m c main_v22 (((cfg0.win 2).blk t).view.emb (ix2 (0 : Fin 1) j)) = _
  refine congrArg (V m c main_v22) (funext fun a => Fin.ext ?_)
  match a with
  | ⟨0, _⟩ => show win0_2.index t (0 : Fin 2) * 1 + 1 * 0 = 0; omega
  | ⟨1, _⟩ => show win0_2.index t (1 : Fin 2) * 128 + 1 * j.val = j.val; omega

theorem read_w2 (c : Dev nD) (t : Fin cfg0.N) (j q : Fin 128) :
    iblk m c 3 t (ix2 j q) = V m c main_arg5 (ix2 j q) := by
  obtain ⟨-, -, -, -, -, -, e0, e1, -⟩ := block_index t
  show V m c main_arg5 (((cfg0.win 3).blk t).view.emb (ix2 j q)) = _
  refine congrArg (V m c main_arg5) (funext fun a => Fin.ext ?_)
  match a with
  | ⟨0, _⟩ => show win0_3.index t (0 : Fin 2) * 128 + 1 * j.val = j.val; omega
  | ⟨1, _⟩ => show win0_3.index t (1 : Fin 2) * 128 + 1 * q.val = q.val; omega

theorem read_r2 (c : Dev nD) (t : Fin cfg0.N) (q : Fin 128) :
    iblk m c 4 t (ix2 (0 : Fin 1) q) = V m c main_v23 (ix2 (0 : Fin 1) q) := by
  obtain ⟨-, -, -, -, -, -, -, -, e0, e1, -⟩ := block_index t
  show V m c main_v23 (((cfg0.win 4).blk t).view.emb (ix2 (0 : Fin 1) q)) = _
  refine congrArg (V m c main_v23) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- Entry `(p, q)` of the result window's block at point `t` is entry `(5000·t + p, q)` of the array. -/
theorem out_index (t : Fin cfg0.N) (p : Fin 5000) (q : Fin 128) :
    ((cfg0.win 5).blk t).view.emb (ix2 p q) = ix2 (rowOf t p) q := by
  obtain ⟨-, -, -, -, -, -, -, -, -, -, e0, e1⟩ := block_index t
  funext a
  apply Fin.ext
  match a with
  | ⟨0, _⟩ => show win0_5.index t (0 : Fin 2) * 5000 + 1 * p.val = t.val * 5000 + p.val; omega
  | ⟨1, _⟩ => show win0_5.index t (1 : Fin 2) * 128 + 1 * q.val = q.val; omega

/-! ## What a point writes back, the cover, the array -/

/-- What point `t` writes back is block `t` of `rowsMlp` of the arrays the region finds. -/
theorem flushed_eq (c : Dev nD) (t : Fin cfg0.N) :
    (dats m 0 c).flushed 5 t = ((cfg0.win 5).blk t).view.read (Elt Ideal)
      (rowsMlp (V m c main_v21) (V m c main_arg3) (V m c main_v22) (V m c main_arg5) (V m c main_v23)) := by
  rw [Cert.KernelIdeal.Value.flushed5]
  unfold out0_5
  rw [View.canon_unit_zero zero_offsets]
  simp only [View.ld_unit_zero (S := S5000x128) zero_offsets, View.ld_unit_zero (S := S128x128) zero_offsets,
    View.ld_unit_zero (S := S1x128) zero_offsets]
  funext y
  obtain ⟨p, q, rfl⟩ : ∃ (p : Fin 5000) (q : Fin 128), y = ix2 p q := ⟨y 0, y 1, eq_ix2 (n0 := 5000) (n1 := 128) y⟩
  show k0_pay1 (F := Ideal) (iblk m c 0 t) (iblk m c 1 t) (iblk m c 2 t) (iblk m c 3 t) (iblk m c 4 t) (ix2 p q)
    = rowsMlp (V m c main_v21) (V m c main_arg3) (V m c main_v22) (V m c main_arg5) (V m c main_v23)
        (((cfg0.win 5).blk t).view.emb (ix2 p q))
  rw [out_index t p q, rowsMlp_apply]
  refine (BodyAtIndex.pay_apply _ _ _ _ _ p q).trans ?_
  simp only [read_rows m c t, read_w1 m c t, read_r1 m c t, read_w2 m c t, read_r2 m c t]

/-- An index of the result array is in point `t`'s block iff each coordinate is in the block's range on its axis. -/
theorem mem_block (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v24).slice (win0_5.rect t)).set ↔ _
  rw [View.set_slice_whole, Rect.mem_set_unit]
  exact Iff.rfl

/-- Every index of the result array lies in the block of the point its row belongs to: row `r` in block `r / 5000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 5000 < cfg0.N := by rw [show cfg0.N = 20 from N_0]; omega
  obtain ⟨-, -, -, -, -, -, -, -, -, -, e0, e1⟩ := block_index ⟨(i 0).val / 5000, hN⟩
  have e0' : win0_5.index ⟨(i 0).val / 5000, hN⟩ (0 : Fin 2) = (i 0).val / 5000 := e0
  refine ⟨⟨(i 0).val / 5000, hN⟩, flush0_5 _, ?_⟩
  rw [mem_block]
  intro a
  match a with
  | ⟨0, _⟩ =>
    show win0_5.index ⟨(i 0).val / 5000, hN⟩ (0 : Fin 2) * 5000 ≤ (i 0).val
      ∧ (i 0).val < win0_5.index ⟨(i 0).val / 5000, hN⟩ (0 : Fin 2) * 5000 + 5000
    omega
  | ⟨1, _⟩ =>
    show win0_5.index ⟨(i 0).val / 5000, hN⟩ (1 : Fin 2) * 128 ≤ (i 1).val
      ∧ (i 1).val < win0_5.index ⟨(i 0).val / 5000, hN⟩ (1 : Fin 2) * 128 + 128
    omega

/-- After the run the result array is `rowsMlp` of the arrays the region finds. -/
theorem final (c : Dev nD) :
    (dats m 0 c).arrAt 5 cfg0.N
      = rowsMlp (V m c main_v21) (V m c main_arg3) (V m c main_v22) (V m c main_arg5) (V m c main_v23) :=
  (dats m 0 c).arrAt_eq_of_cover 5 _ (fun t _ => flushed_eq m c t) cover

end Cert.Gin.KernelArray

end
-- ==== Proof.EntryArrays.lean ====
/-
  The arrays the kernel's region finds, as functions of the arguments.

  Before the region the host code prepares three of the region's arrays:
    * the aggregated features: the residual `(1 + eps) · x` into which the rows `x[src e]` are accumulated at the rows
      `dst e`, one update per edge `e`, both index rows first wrapped (`d ↦ if d < 0 then d + 100000 else d`);
    * the two bias vectors, each reshaped from `[128]` to a `[1, 128]` row.
  Each is the composition of the host operations that write it, read off the operations' list.
-/
import proofs.«111554_j11587821765006_2_alg».proof.Proof.Gen.KernelIdeal.Frame
import Idealize.ShloMosaic.Lib.StableHlo.Run
import Idealize.ShloMosaic.PureOps.Ideal

noncomputable section

namespace Cert.Gin.EntryArrays

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The source node of every edge: row 0 of the edge list, as a vector of `E` words. -/
def src (c : Dev nD) : IVec S1600000 32 :=
  shapeCast S1600000 (extractStridedSlice S1x1600000 ![0, 0] (m ((c : Thread nD τ).loc main_arg1))
    slices_S2x1600000_S1x1600000_0_0) shapeCasts_S1x1600000_S1600000

/-- The destination node of every edge: row 1 of the edge list, as a vector of `E` words. -/
def dst (c : Dev nD) : IVec S1600000 32 :=
  shapeCast S1600000 (extractStridedSlice S1x1600000 ![1, 0] (m ((c : Thread nD τ).loc main_arg1))
    slices_S2x1600000_S1x1600000_1_0) shapeCasts_S1x1600000_S1600000

/-- Wrapping a node index: `d + 100000` where `d < 0` (signed), `d` elsewhere. -/
def wrap (d : IVec S1600000 32) : IVec S1600000 32 :=
  select (cmpi .slt d (broadcastInDim S1600000 ![] bcast_S_S1600000 (constantI S_ 32 0#32)))
    (addi d (broadcastInDim S1600000 ![] bcast_S_S1600000 (constantI S_ 32 100000#32))) d

/-- The residual `(1 + eps) · x`. -/
def residual (c : Dev nD) : FVec Ideal S100000x128 .f32 :=
  mulf (broadcastInDim S100000x128 ![] bcast_S_S100000x128
      (addf (constant S_ .f32 0x3F800000#32) (shapeCast S_ (m ((c : Thread nD τ).loc main_arg2)) shapeCasts_S1_S_)))
    (m ((c : Thread nD τ).loc main_arg0))

/-- One row of features per edge: `x[src e]`, the source index wrapped. -/
def gathered (c : Dev nD) : FVec Ideal S1600000x128 .f32 :=
  Host.gather gather_S100000x128_S1600000x1_S1600000x128_1_0_n_n_0_1_1128 (m ((c : Thread nD τ).loc main_arg0))
    (broadcastInDim S1600000x1 ![0] bcast_S1600000_S1600000x1_0 (wrap (src m c)))

set_option maxHeartbeats 4000000 in
/-- The aggregated features as the region finds them: the per-edge rows accumulated into the residual at the
    wrapped destination rows. -/
theorem rows_entry (c : Dev nD) :
    (V m c main_v21 : S100000x128.Idx → Elt Ideal .f32)
      = Host.scatterAdd scatter_S100000x128_S1600000x1_S1600000x128_1_0_0_1 (residual m c)
          (broadcastInDim S1600000x1 ![0] bcast_S1600000_S1600000x1_0 (wrap (dst m c))) (gathered m c) := by
  dsimp only [V, hostOps0]
  after_results
  rfl

/-- The first bias as the region finds it: the `[128]` vector reshaped to a `[1, 128]` row. -/
theorem bias1_entry (c : Dev nD) :
    (V m c main_v22 : S1x128.Idx → Elt Ideal .f32)
      = shapeCast S1x128 (m ((c : Thread nD τ).loc main_arg4)) shapeCasts_S128_S1x128 := by
  dsimp only [V, hostOps0]
  after_results
  rfl

/-- The second bias as the region finds it: the `[128]` vector reshaped to a `[1, 128]` row. -/
theorem bias2_entry (c : Dev nD) :
    (V m c main_v23 : S1x128.Idx → Elt Ideal .f32)
      = shapeCast S1x128 (m ((c : Thread nD τ).loc main_arg6)) shapeCasts_S128_S1x128 := by
  dsimp only [V, hostOps0]
  after_results
  rfl

end Cert.Gin.EntryArrays

end
-- ==== Proof.DstNonneg.lean ====
/-
  The destination indices are non-negative, so wrapping them changes nothing.

  The precondition's last conjunct says that every entry of row 1 of the edge list — the destination node of each
  edge — is a non-negative signed 32-bit word.  Array indexing that admits negative indices first replaces an index
  `d` by `d + n` when `d < 0` (and leaves it alone otherwise); on a non-negative `d` that replacement is the identity,
  entry by entry.
-/
import proofs.«111554_j11587821765006_2_alg».proof.Pre_finite_inputs
import Idealize.ShloMosaic.Lib.ReduceAll
import Idealize.ShloMosaic.Lib.ValueIdx

noncomputable section

namespace Cert.Gin.DstNonneg

open Idealize.ShloMosaic

/-- The rank-0 shape has one index. -/
instance : Subsingleton Cert.Pre_finite_inputs.S_.Idx := ⟨fun a b => funext fun d => d.elim0⟩

/-- Where the precondition holds, every destination index — row 1 of the edge list, read as the programs read it
    (the row sliced out as `[1, E]`, then reshaped to `[E]`) — is a non-negative signed word. -/
theorem dst_nonneg {F : FTy → Type} [FloatOps F] [hP : Cert.Pre_finite_inputs.Facts]
    (x0 : FVec F Cert.Pre_finite_inputs.S100000x128 .f32) (x1 : IVec Cert.Pre_finite_inputs.S2x1600000 32)
    (x2 : FVec F Cert.Pre_finite_inputs.S1 .f32) (x3 : FVec F Cert.Pre_finite_inputs.S128x128 .f32)
    (x4 : FVec F Cert.Pre_finite_inputs.S128 .f32) (x5 : FVec F Cert.Pre_finite_inputs.S128x128 .f32)
    (x6 : FVec F Cert.Pre_finite_inputs.S128 .f32)
    (h : Cert.Pre_finite_inputs.fn (F := F) x0 x1 x2 x3 x4 x5 x6 = fun _ => 1#1)
    (hs : Cert.Pre_finite_inputs.S2x1600000.Slices ![1, 0] Cert.Pre_finite_inputs.S1x1600000)
    (hc : Cert.Pre_finite_inputs.S1x1600000.ShapeCasts Cert.Pre_finite_inputs.S1600000)
    (e : Cert.Pre_finite_inputs.S1600000.Idx) :
    (0 : Int) ≤ (shapeCast Cert.Pre_finite_inputs.S1600000
      (extractStridedSlice Cert.Pre_finite_inputs.S1x1600000 ![1, 0] x1 hs) hc e).toInt := by
  have h0 := congrFun h ValueIdx.ix0
  unfold Cert.Pre_finite_inputs.fn Cert.Pre_finite_inputs.fn_part1 Cert.Pre_finite_inputs.fn_part2 at h0
  dsimp only at h0
  obtain ⟨-, hall⟩ := IntOp.andi_eq_one.1 h0
  have hge := IntOp.cmpi_sge.1 (Host.reduce_andi_all _ _ _ _ _ hall e)
  exact hge

/-- A signed word that is not negative is left alone by `d ↦ if d < 0 then d + n else d`, entry by entry. -/
theorem wrap_eq_self {s : Shape} (d z n : IVec s 32) (hz : ∀ e, z e = 0#32) (hd : ∀ e, (0 : Int) ≤ (d e).toInt) :
    select (cmpi .slt d z) (addi d n) d = d := by
  funext e
  show Scalar.select (IntOp.cmpi .slt (d e) (z e)) (IntOp.addi (d e) (n e)) (d e) = d e
  have hlt : ¬ IntOp.cmpi .slt (d e) (z e) = 1#1 := fun hc => by
    have h1 := IntOp.cmpi_slt.1 hc
    rw [hz e] at h1
    have h2 := hd e
    have h3 : (0#32 : BitVec 32).toInt = 0 := by decide
    omega
  rw [ValueIdx.eq_zero_of_ne_one hlt, ValueIdx.select_zero]

end Cert.Gin.DstNonneg

end
-- ==== Proof.LibScatterIntoBase.lean ====
/-
  An accumulating float scatter into a base array, over the extended reals.

  At the ideal values a float scatter with an `add` body gives, at each element `i` of the operand, the operand's
  element plus the sum of the updates whose result index is `i` (an update that lands outside the operand adds
  nothing).  The operand enters only through that first summand, so scattering into a base array `B` is the same as
  adding `B` to the scatter of the same updates, at the same indices, into an array of zeros:

      scatterAdd B idx U = B + scatterAdd 0 idx U      (element by element, for any dimension numbers)

  This is how "seed the accumulation with the residual" and "accumulate from zero, then add the residual" meet.
  Only `0 + s = s` is used, which holds for every extended real `s`: nothing here needs a finite value.
-/
import Idealize.ShloMosaic.PureOps.Ideal
import Idealize.ShloMosaic.PureOps.Ideal.Laws

noncomputable section

namespace Idealize.ShloMosaic.ScatterIntoBase

open Idealize.ShloMosaic

/-- Scattering updates into a base array adds the base to the scatter of the same updates into zeros. -/
theorem scatterAdd_eq_add_scatterAdd_zero {s si su : Shape} {w : Nat} (d : ScatterDims s si su)
    (B : FVec Ideal s .f32) (z : FVec Ideal s .f32) (hz : ∀ i, z i = Ideal.ofBits .f32 0x00000000#32)
    (idx : IVec si w) (U : FVec Ideal su .f32) :
    Host.scatterAdd d B idx U = addf B (Host.scatterAdd d z idx U) := by
  funext i
  show Ideal.hostScatterAdd d B idx U i = B i + Ideal.hostScatterAdd d z idx U i
  unfold Ideal.hostScatterAdd
  rw [hz i, Ideal.ofBits_zero_f32, zero_add]

end Idealize.ShloMosaic.ScatterIntoBase

end
-- ==== Proof.RefIsMlp.lean ====
/-
  The reference's result, entry by entry, over the extended reals.

  After its aggregation stage `out = (1 + eps) · x + segment_sum` the reference computes
  `relu (out · W1 + b1) · W2 + b2` with two whole matrix products and two bias rows broadcast over the rows.  Each
  product read at `(p, q)` is the plain sum over the contracted coordinate, each broadcast bias reads `b q`, and the
  `relu` is the maximum with the zero word: so the result is the two-layer formula `mlpPre` of the aggregated array.
-/
import proofs.«111554_j11587821765006_2_alg».proof.Proof.Gen.ReferenceIdeal.Read
import proofs.«111554_j11587821765006_2_alg».proof.Proof.LibPlainDot
import proofs.«111554_j11587821765006_2_alg».proof.Proof.LibDense

noncomputable section

namespace Cert.Gin.RefIsMlp

open Cert.ReferenceIdeal Idealize.ShloMosaic Idealize.ShloMosaic.ValueIdx
open Idealize.ShloMosaic.DenseLayer (zeroWord mlpPre)

variable [Cert.ReferenceIdeal.Facts]

/-- The reference's product records are plain `M×K` by `K×N` products. -/
theorem dot_plain :
    dot_S100000x128_S128x128_S100000x128_1_0_0_1_n_n = DotDims.plain 100000 128 128 := rfl

/-- The hidden layer at `(p, j)`: `max (∑ k, out (p, k) * W1 (k, j) + b1 j) 0`. -/
theorem hidden_apply (x0 : (⟨S100000x128, .f32⟩ : BufTy).Contents (Elt Ideal)) (x1 : (⟨S2x1600000, .i32⟩ : BufTy).Contents (Elt Ideal))
    (x2 : (⟨S1, .f32⟩ : BufTy).Contents (Elt Ideal)) (x3 : (⟨S128x128, .f32⟩ : BufTy).Contents (Elt Ideal))
    (x4 : (⟨S128, .f32⟩ : BufTy).Contents (Elt Ideal)) (p : Fin 100000) (j : Fin 128) :
    Read.val_main_v23 (F := Ideal) x0 x1 x2 x3 x4 (ix2 p j)
      = max (∑ k : Fin 128, Read.val_main_v18 (F := Ideal) x0 x1 x2 (ix2 p k) * x3 (ix2 k j) + x4 (ix1 j)) zeroWord := by
  rw [Read.val_main_v23_apply, Read.val_main_v22_apply]
  unfold Read.val_main_v21 Read.val_main_v20 Read.val_main_v19
  simp only [Host.dotGeneral]
  rw [PlainDot.dotGeneral_apply _ dot_plain, DenseLayer.inDimRow_apply]
  rfl

/-- The reference's result is `relu (out · W1 + b1) · W2 + b2` of its aggregated array `out`, entry by entry. -/
theorem result_eq (x0 : (⟨S100000x128, .f32⟩ : BufTy).Contents (Elt Ideal)) (x1 : (⟨S2x1600000, .i32⟩ : BufTy).Contents (Elt Ideal))
    (x2 : (⟨S1, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) :
    Read.val_main_v27 (F := Ideal) x0 x1 x2 x3 x4 x5 x6
      = mlpPre (Read.val_main_v18 (F := Ideal) x0 x1 x2) x3 x4 x5 x6 := by
  funext i
  obtain ⟨p, q, rfl⟩ : ∃ (p : Fin 100000) (q : Fin 128), i = ix2 p q := ⟨i 0, i 1, eq_ix2 (n0 := 100000) (n1 := 128) i⟩
  rw [DenseLayer.mlpPre_apply, Read.val_main_v27_apply]
  unfold Read.val_main_v26 Read.val_main_v25 Read.val_main_v24
  simp only [Host.dotGeneral]
  rw [PlainDot.dotGeneral_apply _ dot_plain, DenseLayer.inDimRow_apply]
  refine congrArg₂ (· + ·) (Finset.sum_congr rfl fun j _ => ?_) rfl
  rw [hidden_apply]

end Cert.Gin.RefIsMlp

end
-- ==== Proof.Bridge.lean ====
/-
  The kernel's result array equals the reference's result, as functions of the arguments.

  Where every destination index is non-negative (the precondition), wrapping the destination indices changes nothing,
  so the kernel accumulates the per-edge rows at the very rows the reference's segment sum uses.  The kernel seeds the
  accumulation with the residual `(1 + eps) · x`; the reference accumulates from zeros and adds the residual
  afterwards.  Over the extended reals these are one array (an accumulation into a base is the base plus the
  accumulation into zeros).  On it both programs apply `relu (· W1 + b1) · W2 + b2`; the kernel's biases are the same
  vectors laid out as `[1, 128]` rows.
-/
import proofs.«111554_j11587821765006_2_alg».proof.Defs
import proofs.«111554_j11587821765006_2_alg».proof.Proof.KernelArray
import proofs.«111554_j11587821765006_2_alg».proof.Proof.EntryArrays
import proofs.«111554_j11587821765006_2_alg».proof.Proof.DstNonneg
import proofs.«111554_j11587821765006_2_alg».proof.Proof.LibScatterIntoBase
import proofs.«111554_j11587821765006_2_alg».proof.Proof.RefIsMlp
import Idealize.ShloMosaic.Lib.ValueLayout

noncomputable section

namespace Cert.Gin.Bridge

open Cert.KernelIdeal Cert.KernelIdeal.Gen Idealize.ShloMosaic Idealize.ShloMosaic.TcCoe Idealize.SL.Sem
open Idealize.ShloMosaic.ValueIdx
open Idealize.ShloMosaic.DenseLayer (mlpPre)
open Cert.Gin.EntryArrays

variable [hP : Cert.Pre_finite_inputs.Facts]
variable (m : (ℓ : Loc nD τ sig) → Buf (Elt Ideal) ℓ)

/-- With the biases laid out as `[1, 128]` rows, the row-by-row formula is the two-layer formula of the bias vectors. -/
theorem rowsMlp_of_rows (a : S100000x128.Idx → Elt Ideal .f32) (w1 : S128x128.Idx → Elt Ideal .f32)
    (b1 : S128.Idx → Elt Ideal .f32) (w2 : S128x128.Idx → Elt Ideal .f32) (b2 : S128.Idx → Elt Ideal .f32)
    (h : S128.ShapeCasts S1x128) :
    KernelArray.rowsMlp a w1 (shapeCast S1x128 b1 h) w2 (shapeCast S1x128 b2 h) = mlpPre a w1 b1 w2 b2 := by
  funext i
  obtain ⟨p, q, rfl⟩ : ∃ (p : Fin 100000) (q : Fin 128), i = ix2 p q := ⟨i 0, i 1, eq_ix2 (n0 := 100000) (n1 := 128) i⟩
  rw [KernelArray.rowsMlp_apply, DenseLayer.mlpPre_apply]
  simp only [shapeCast_a_1a_apply]

/-- Where the precondition holds, the aggregated features the kernel's region finds are the reference's
    `(1 + eps) · x + segment_sum`. -/
theorem rows_entry_eq_ref (c : Dev nD) (hpre : Cert.Pre_KernelIdeal m) :
    (V m c main_v21 : S100000x128.Idx → Elt Ideal .f32)
      = Cert.ReferenceIdeal.Read.val_main_v18 (F := Ideal) (m ((c : Thread nD τ).loc main_arg0))
          (m ((c : Thread nD τ).loc main_arg1)) (m ((c : Thread nD τ).loc main_arg2)) := by
  have hd : ∀ e, (0 : Int) ≤ (dst m c e).toInt := fun e =>
    DstNonneg.dst_nonneg _ _ _ _ _ _ _ (hpre c) slices_S2x1600000_S1x1600000_1_0 shapeCasts_S1x1600000_S1600000 e
  rw [rows_entry, show wrap (dst m c) = dst m c from DstNonneg.wrap_eq_self _ _ _ (fun _ => rfl) hd,
    ScatterIntoBase.scatterAdd_eq_add_scatterAdd_zero _ _
      (broadcastInDim S100000x128 ![] bcast_S_S100000x128 (constant S_ .f32 0x00000000#32)) (fun _ => rfl)]
  rfl

/-- Where the precondition holds, the kernel's result array is `relu (out · W1 + b1) · W2 + b2` of the reference's
    aggregated array `out` and of the weight and bias arguments. -/
theorem kernel_result (c : Dev nD) (hpre : Cert.Pre_KernelIdeal m) :
    (dats m 0 c).arrAt 5 cfg0.N
      = mlpPre (Cert.ReferenceIdeal.Read.val_main_v18 (F := Ideal) (m ((c : Thread nD τ).loc main_arg0))
            (m ((c : Thread nD τ).loc main_arg1)) (m ((c : Thread nD τ).loc main_arg2)))
          (m ((c : Thread nD τ).loc main_arg3)) (m ((c : Thread nD τ).loc main_arg4))
          (m ((c : Thread nD τ).loc main_arg5)) (m ((c : Thread nD τ).loc main_arg6)) := by
  rw [KernelArray.final, bias1_entry, bias2_entry, V_main_arg3, V_main_arg5, rows_entry_eq_ref m c hpre]
  exact rowsMlp_of_rows _ _ _ _ _ _

end Cert.Gin.Bridge

end
-- ==== Proof.lean ====
/-
  A graph-isomorphism layer: neighbour aggregation with a residual, then a two-layer perceptron.

  Both programs compute, for node features `x : [100000, 128]` and an edge list `(src e, dst e)`, e < 1600000,

      out = (1 + eps) · x + (sum over the edges e with dst e = r of x[src e])  at row r,
      y   = relu (out · W1 + b1) · W2 + b2.

  The reference accumulates the per-edge rows from zeros (a segment sum) and adds the residual; the kernel's host code
  seeds the accumulation with the residual, and a Pallas kernel then computes `y` for 5000 rows per grid point, with
  bf16 operands for the two products.  Over the extended reals: narrowing a float format is the identity; a product
  into a zero accumulator and a whole matrix product are the same plain sum over the contracted coordinate, whatever
  the blocking of the rows; an accumulation into a base array is the base plus the accumulation into zeros (only
  `0 + s = s`, so no finiteness is used); the 20 row blocks tile the rows.

  The two programs treat a NEGATIVE destination index differently: the kernel's `.at[dst].add` wraps it (`d + 100000`),
  the reference's segment sum drops the update.  The precondition therefore carries, beside the finiteness of the float
  inputs, that every destination index is non-negative; on such indices the wrap is the identity.  (Indices that are
  too large are dropped by both accumulations alike, and the source indices are wrapped by both programs alike.)

  The frames and the run of each program are the generated ones; `preserves` is trivial (no rewrite was applied).
-/
import proofs.«111554_j11587821765006_2_alg».proof.Defs
import proofs.«111554_j11587821765006_2_alg».proof.Proof.Gen.Kernel
import proofs.«111554_j11587821765006_2_alg».proof.Proof.Gen.Kernel.Skeleton
import proofs.«111554_j11587821765006_2_alg».proof.Proof.Gen.Kernel.Launch
import proofs.«111554_j11587821765006_2_alg».proof.Proof.Gen.Kernel.Points
import proofs.«111554_j11587821765006_2_alg».proof.Proof.Gen.Kernel.Frame
import proofs.«111554_j11587821765006_2_alg».proof.Proof.Gen.KernelIdeal
import proofs.«111554_j11587821765006_2_alg».proof.Proof.Gen.KernelIdeal.Skeleton
import proofs.«111554_j11587821765006_2_alg».proof.Proof.Gen.KernelIdeal.Launch
import proofs.«111554_j11587821765006_2_alg».proof.Proof.Gen.KernelIdeal.Points
import proofs.«111554_j11587821765006_2_alg».proof.Proof.Gen.KernelIdeal.Frame
import proofs.«111554_j11587821765006_2_alg».proof.Proof.Gen.ReferenceIdeal
import proofs.«111554_j11587821765006_2_alg».proof.Proof.Gen.Pre_finite_inputs
import proofs.«111554_j11587821765006_2_alg».proof.Proof.Gen.KernelIdeal.Value
import proofs.«111554_j11587821765006_2_alg».proof.Proof.Gen.ReferenceIdeal.Run
import proofs.«111554_j11587821765006_2_alg».proof.Proof.Gen.ReferenceIdeal.Read
import proofs.«111554_j11587821765006_2_alg».proof.Proof.Bridge
import Idealize.ShloMosaic.Adequacy
import Idealize.ShloMosaic.Init

noncomputable section

namespace Cert.Proof

open Idealize.ShloMosaic Idealize.ShloMosaic.TcCoe Idealize.SL.Sem

instance kernelFacts : Cert.Kernel.Facts := Cert.Kernel.Gen.facts
instance kernelIdealFacts : Cert.KernelIdeal.Facts := Cert.KernelIdeal.Gen.facts
instance referenceIdealFacts : Cert.ReferenceIdeal.Facts := Cert.ReferenceIdeal.Gen.facts
instance preFacts : Cert.Pre_finite_inputs.Facts := Cert.Pre_finite_inputs.Gen.facts

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result `relu (out · W1 + b1) · W2 + b2` of the same aggregated array `out`. -/
theorem algebraic : Cert.algebraic_KernelIdeal_ReferenceIdeal := by
  intro m ρ m' ρ' hpre hagree
  refine ⟨fun c => DenseLayer.mlpPre
      (Cert.ReferenceIdeal.Read.val_main_v18 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.Gin.Bridge.kernel_result m c hpre), (h c).2⟩)
      (Cert.KernelIdeal.Value.run_blocks (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v27_eq, Cert.Gin.RefIsMlp.result_eq, (hagree c).1, (hagree c).2.1,
      (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
